-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 124
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x1, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S_, .f32⟩
  | .hbm, ⟨107, _⟩ => ⟨S64x128, .f32⟩
  | .hbm, ⟨108, _⟩ => ⟨S100000x1, .i32⟩
  | .hbm, ⟨109, _⟩ => ⟨S64x128, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S64, .f32⟩
  | .hbm, ⟨114, _⟩ => ⟨S100000x1, .i32⟩
  | .hbm, ⟨115, _⟩ => ⟨S64, .f32⟩
  | .hbm, ⟨116, _⟩ => ⟨S_, .f32⟩
  | .hbm, ⟨117, _⟩ => ⟨S64, .f32⟩
  | .hbm, ⟨118, _⟩ => ⟨S64, .f32⟩
  | .hbm, ⟨119, _⟩ => ⟨S64x1, .f32⟩
  | .hbm, ⟨120, _⟩ => ⟨S64x128, .f32⟩
  | .hbm, ⟨121, _⟩ => ⟨S64x128, .f32⟩
  | .hbm, ⟨122, _⟩ => ⟨S1x10, .f32⟩
  | .hbm, ⟨123, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S128x10, .f32⟩
  | .local _ .vmem, ⟨24, _⟩ => ⟨S1x10, .f32⟩
  | .local _ .vmem, ⟨25, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S64x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 212
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S100000, .i32⟩
  | 17 => ⟨S1700000, .i32⟩
  | 18 => ⟨S100000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000, .i32⟩
  | 77 => ⟨S1700000, .i32⟩
  | 78 => ⟨S100000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S_, .f32⟩
  | 91 => ⟨S100000, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x128, .f32⟩
  | 8 => ⟨S100000, .i32⟩
  | 9 => ⟨S1700000, .i32⟩
  | 10 => ⟨S100000, .i32⟩
  | 11 => ⟨S1700000, .i32⟩
  | 12 => ⟨S_, .f32⟩
  | 13 => ⟨S1700000, .f32⟩
  | 14 => ⟨S_, .f32⟩
  | 15 => ⟨S100000, .f32⟩
  | 16 => ⟨S1700000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S_, .f32⟩
  | 23 => ⟨S100000, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S64x128, .f32⟩
  | 66 => ⟨S100000x1, .i32⟩
  | 67 => ⟨S64x128, .f32⟩
  | 68 => ⟨S_, .f32⟩
  | 69 => ⟨S100000, .f32⟩
  | 70 => ⟨S_, .f32⟩
  | 71 => ⟨S64, .f32⟩
  | 72 => ⟨S100000x1, .i32⟩
  | 73 => ⟨S64, .f32⟩
  | 74 => ⟨S_, .f32⟩
  | 75 => ⟨S64, .f32⟩
  | 76 => ⟨S64, .f32⟩
  | 77 => ⟨S64x1, .f32⟩
  | 78 => ⟨S64x128, .f32⟩
  | 79 => ⟨S64x128, .f32⟩
  | 80 => ⟨S64x10, .f32⟩
  | 81 => ⟨S1x10, .f32⟩
  | 82 => ⟨S64x10, .f32⟩
  | 83 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_15 : Ref sig .tc := ⟨.hbm, 103, rfl⟩
abbrev main_v69 : Ref sig .tc := ⟨.hbm, 104, rfl⟩
abbrev main_v70 : Ref sig .tc := ⟨.hbm, 105, rfl⟩
abbrev main_c_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_17 : Ref sig .tc := ⟨.hbm, 113, rfl⟩
abbrev main_v77 : Ref sig .tc := ⟨.hbm, 114, rfl⟩
abbrev main_v78 : Ref sig .tc := ⟨.hbm, 115, rfl⟩
abbrev main_c_18 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_call3_cst : Ref sig .tc := ⟨.hbm, 132, rfl⟩
abbrev main_call3_v0 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_cst_21 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_22 : Ref sig .tc := ⟨.hbm, 146, rfl⟩
abbrev main_v103 : Ref sig .tc := ⟨.hbm, 147, rfl⟩
abbrev main_v104 : Ref sig .tc := ⟨.hbm, 148, rfl⟩
abbrev main_cst_23 : Ref sig .tc := ⟨.hbm, 149, rfl⟩
abbrev main_call4_v0 : Ref sig .tc := ⟨.hbm, 150, rfl⟩
abbrev main_call4_v1 : Ref sig .tc := ⟨.hbm, 151, rfl⟩
abbrev main_v105 : Ref sig .tc := ⟨.hbm, 152, rfl⟩
abbrev main_v106 : Ref sig .tc := ⟨.hbm, 153, rfl⟩
abbrev main_c_24 : Ref sig .tc := ⟨.hbm, 154, rfl⟩
abbrev main_v107 : Ref sig .tc := ⟨.hbm, 155, rfl⟩
abbrev main_v108 : Ref sig .tc := ⟨.hbm, 156, rfl⟩
abbrev main_c_25 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_c_26 : Ref sig .tc := ⟨.hbm, 163, rfl⟩
abbrev main_v114 : Ref sig .tc := ⟨.hbm, 164, rfl⟩
abbrev main_v115 : Ref sig .tc := ⟨.hbm, 165, rfl⟩
abbrev main_c_27 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_c_28 : Ref sig .tc := ⟨.hbm, 173, rfl⟩
abbrev main_v122 : Ref sig .tc := ⟨.hbm, 174, rfl⟩
abbrev main_v123 : Ref sig .tc := ⟨.hbm, 175, rfl⟩
abbrev main_c_29 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_30 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_31 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_32 : Ref sig .tc := ⟨.hbm, 196, rfl⟩
abbrev main_v141 : Ref sig .tc := ⟨.hbm, 197, rfl⟩
abbrev main_cst_33 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_34 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The network's run with its two results named. The program is twelve segments: seven stretches of host operations and
  five kernel regions; the buffer contents at each boundary are a fold from the launch memory, the last of them the
  contents after the fifth region. Every weakly fair execution terminates with every unscoped buffer at those last
  contents; read at the two result buffers and at the eleven arguments this is the statement below. What the last
  contents hold at the two result buffers is computed elsewhere, segment by segment.
-/
import proofs.«140348_j49881750176158_1_alg».proof.Proof.Gen.KernelIdeal.Frame

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the logits and the embeddings at the last boundary's
    contents and the arguments as launched. -/
theorem run : θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_v87) = W12 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       h c _ (mem_uc main_v87 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Results

end
-- ==== Proof.Fold.lean ====
/-
  What the later segments read of the earlier ones. The buffer contents at the twelve segment boundaries are a fold
  from the launch memory: a stretch of host operations changes only its operations' result buffers, a kernel region
  only its output array. So an argument read at a boundary still holds its launch contents, and the edge lists and
  the message weights, computed before the first region, are read unchanged by every later message pass: each
  equation below walks one buffer back through the segments that do not write it.
-/
import proofs.«140348_j49881750176158_1_alg».proof.Proof.Gen.KernelIdeal.Frame

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer alone when none of its operations writes it: the result buffers are
    literal references, each compared with the buffer's. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- Nothing up to boundary 3 writes `main_arg0`. -/
theorem main_arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

/-- Nothing up to boundary 3 writes `main_arg3`. -/
theorem main_arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- Nothing up to boundary 4 writes `main_arg4`. -/
theorem main_arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- Nothing up to boundary 5 writes `main_arg5`. -/
theorem main_arg5_at5 (c : Dev nD) : W5 m ρ c (Proc.devRef .tc main_arg5) = m ((c : Thread nD τ).loc main_arg5) :=
  calc W5 m ρ c (Proc.devRef .tc main_arg5)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- Nothing up to boundary 6 writes `main_arg6`. -/
theorem main_arg6_at6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-- Nothing up to boundary 7 writes `main_arg7`. -/
theorem main_arg7_at7 (c : Dev nD) : W7 m ρ c (Proc.devRef .tc main_arg7) = m ((c : Thread nD τ).loc main_arg7) :=
  calc W7 m ρ c (Proc.devRef .tc main_arg7)
    _ = W6 m ρ c (Proc.devRef .tc main_arg7) := by host_keeps hostOps2
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/-- Nothing up to boundary 8 writes `main_arg8`. -/
theorem main_arg8_at8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_keeps hostOps2
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

/-- Nothing up to boundary 10 writes `main_arg2`. -/
theorem main_arg2_at10 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by host_keeps hostOps3
    _ = W7 m ρ c (Proc.devRef .tc main_arg2) := W8_of_ne m ρ c main_arg2 (by decide)
    _ = W6 m ρ c (Proc.devRef .tc main_arg2) := by host_keeps hostOps2
    _ = W5 m ρ c (Proc.devRef .tc main_arg2) := W6_of_ne m ρ c main_arg2 (by decide)
    _ = W4 m ρ c (Proc.devRef .tc main_arg2) := by host_keeps hostOps1
    _ = W3 m ρ c (Proc.devRef .tc main_arg2) := W4_of_ne m ρ c main_arg2 (by decide)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

/-- Nothing up to boundary 10 writes `main_arg10`. -/
theorem main_arg10_at10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by host_keeps hostOps3
    _ = W7 m ρ c (Proc.devRef .tc main_arg10) := W8_of_ne m ρ c main_arg10 (by decide)
    _ = W6 m ρ c (Proc.devRef .tc main_arg10) := by host_keeps hostOps2
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = m ((c : Thread nD τ).loc main_arg10) := rfl

/-- Nothing up to boundary 11 writes `main_arg9`. -/
theorem main_arg9_at11 (c : Dev nD) : W11 m ρ c (Proc.devRef .tc main_arg9) = m ((c : Thread nD τ).loc main_arg9) :=
  calc W11 m ρ c (Proc.devRef .tc main_arg9)
    _ = W10 m ρ c (Proc.devRef .tc main_arg9) := by host_keeps hostOps4
    _ = W9 m ρ c (Proc.devRef .tc main_arg9) := W10_of_ne m ρ c main_arg9 (by decide)
    _ = W8 m ρ c (Proc.devRef .tc main_arg9) := by host_keeps hostOps3
    _ = W7 m ρ c (Proc.devRef .tc main_arg9) := W8_of_ne m ρ c main_arg9 (by decide)
    _ = W6 m ρ c (Proc.devRef .tc main_arg9) := by host_keeps hostOps2
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl

/-- Nothing after the first stretch writes `main_v5` before boundary 2 / 3. -/
theorem main_v5_at2_from1 (c : Dev nD) : W2 m ρ c (Proc.devRef .tc main_v5) = W1 m ρ c (Proc.devRef .tc main_v5) :=
  calc W2 m ρ c (Proc.devRef .tc main_v5)
    _ = W1 m ρ c (Proc.devRef .tc main_v5) := by host_keeps hostOps0_1

theorem main_v5_at3_from1 (c : Dev nD) : W3 m ρ c (Proc.devRef .tc main_v5) = W1 m ρ c (Proc.devRef .tc main_v5) :=
  calc W3 m ρ c (Proc.devRef .tc main_v5)
    _ = W2 m ρ c (Proc.devRef .tc main_v5) := by host_keeps hostOps0_2
    _ = W1 m ρ c (Proc.devRef .tc main_v5) := by host_keeps hostOps0_1

/-- Nothing after the first stretch writes `main_v6` before boundary 2 / 3. -/
theorem main_v6_at2_from1 (c : Dev nD) : W2 m ρ c (Proc.devRef .tc main_v6) = W1 m ρ c (Proc.devRef .tc main_v6) :=
  calc W2 m ρ c (Proc.devRef .tc main_v6)
    _ = W1 m ρ c (Proc.devRef .tc main_v6) := by host_keeps hostOps0_1

theorem main_v6_at3_from1 (c : Dev nD) : W3 m ρ c (Proc.devRef .tc main_v6) = W1 m ρ c (Proc.devRef .tc main_v6) :=
  calc W3 m ρ c (Proc.devRef .tc main_v6)
    _ = W2 m ρ c (Proc.devRef .tc main_v6) := by host_keeps hostOps0_2
    _ = W1 m ρ c (Proc.devRef .tc main_v6) := by host_keeps hostOps0_1

/-- Nothing between boundaries 3 and 4 writes `main_v5`. -/
theorem main_v5_at4_from3 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- Nothing between boundaries 3 and 6 writes `main_v5`. -/
theorem main_v5_at6_from3 (c : Dev nD) : W6 m ρ c (Proc.devRef .tc main_v5) = W3 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by host_keeps hostOps1
    _ = W3 m ρ c (Proc.devRef .tc main_v5) := W4_of_ne m ρ c main_v5 (by decide)

/-- Nothing between boundaries 3 and 8 writes `main_v5`. -/
theorem main_v5_at8_from3 (c : Dev nD) : W8 m ρ c (Proc.devRef .tc main_v5) = W3 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := by host_keeps hostOps2
    _ = W5 m ρ c (Proc.devRef .tc main_v5) := W6_of_ne m ρ c main_v5 (by decide)
    _ = W4 m ρ c (Proc.devRef .tc main_v5) := by host_keeps hostOps1
    _ = W3 m ρ c (Proc.devRef .tc main_v5) := W4_of_ne m ρ c main_v5 (by decide)

/-- Nothing between boundaries 3 and 4 writes `main_v6`. -/
theorem main_v6_at4_from3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- Nothing between boundaries 3 and 6 writes `main_v6`. -/
theorem main_v6_at6_from3 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

/-- Nothing between boundaries 3 and 8 writes `main_v6`. -/
theorem main_v6_at8_from3 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

/-- Nothing between boundaries 3 and 4 writes `main_v29`. -/
theorem main_v29_at4_from3 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- Nothing between boundaries 3 and 6 writes `main_v29`. -/
theorem main_v29_at6_from3 (c : Dev nD) : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

/-- Nothing between boundaries 3 and 8 writes `main_v29`. -/
theorem main_v29_at8_from3 (c : Dev nD) : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := by host_keeps hostOps2
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

end Cert.KernelIdeal.Fold

end
-- ==== Proof.BlockDot.lean ====
/-
  A product of a 5000 × 128 block with a 128 × 128 matrix, read at one entry. Into a zero accumulator the
  product's entry (p, q) is the plain sum Σ_k a[p, k] · w[k, q] over the 128 values of the contracted axis:
  the contraction index has one coordinate, so the sum over it is re-indexed to a sum over that coordinate, and the
  operand indices the product reads are (p, k) on the left and (k, q) on the right. No finiteness is used: this
  is the definition of the product on the extended reals.
-/
import proofs.«140348_j49881750176158_1_alg».proof.Proof.Gen.KernelIdeal
import Idealize.ShloMosaic.Lib.ValueIdx
import Idealize.ShloMosaic.PureOps.Ideal.Laws

noncomputable section

namespace Cert.KernelIdeal.BlockDot

open Cert.KernelIdeal Cert.KernelIdeal.Gen Idealize.ShloMosaic Idealize.ShloMosaic.ValueIdx
open scoped BigOperators

/-- Entry (p, k) of the left block: the row of the output entry, the contracted coordinate as column. -/
abbrev leftAt (j : S5000x128.Idx) (k : Fin 128) : S5000x128.Idx := fun a => match a with
  | ⟨0, _⟩ => ⟨(j 0).val, (j 0).isLt⟩
  | ⟨1, _⟩ => ⟨k.val, k.isLt⟩
/-- Entry (k, q) of the matrix: the contracted coordinate as row, the column of the output entry. -/
abbrev rightAt (j : S5000x128.Idx) (k : Fin 128) : S128x128.Idx := fun a => match a with
  | ⟨0, _⟩ => ⟨k.val, k.isLt⟩
  | ⟨1, _⟩ => ⟨(j 1).val, (j 1).isLt⟩

theorem lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator at entry `j`: the sum over the contracted coordinate. -/
theorem blockDot_apply {φ₁ φ₂ : FTy} (a : FVec Ideal S5000x128 φ₁) (w : FVec Ideal S128x128 φ₂) (j : S5000x128.Idx) :
    matmul (F := Ideal) dot_S5000x128_S128x128_S5000x128_1_0_0_1_n_n none a w (constant S5000x128 .f32 0x00000000#32) j
      = ∑ k : Fin 128, a (leftAt j k) * w (rightAt j k) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = leftAt j k := funext fun a => Fin.ext (by
    match a with
    | ⟨0, _⟩ => exact lhs0 _ _
    | ⟨1, _⟩ => exact (lhs1 _ _).trans hk)
  have er : dot_S5000x128_S128x128_S5000x128_1_0_0_1_n_n.rhsIdx j ((contrEquiv1 dot_S5000x128_S128x128_S5000x128_1_0_0_1_n_n 128 rfl rfl).symm k) = rightAt j k := funext fun a => Fin.ext (by
    match a with
    | ⟨0, _⟩ => exact (rhs0 _ _).trans hk
    | ⟨1, _⟩ => exact rhs1 _ _)
  rw [el, er]

end Cert.KernelIdeal.BlockDot

end
-- ==== Proof.NodeOps.lean ====
/-
  The node-wise operations of the network as functions of whole arrays, entry by entry, on the extended reals.
  dense a w: the product of the node rows with a weight matrix, (r, q) ↦ Σ_k a[r, k] · w[k, q].
  reluDense s b w: bias, rectifier, then the product, (r, q) ↦ Σ_k max(s[r, k] + b[k], 0) · w[k, q], the bias given as a
  one-row array. biased s b: the bias added to every row, (r, q) ↦ s[r, q] + b[q].
  The zero of the rectifier is kept as the float word it is printed as; both programs print the same word.
-/
import proofs.«140348_j49881750176158_1_alg».proof.Proof.Gen.KernelIdeal
import Idealize.ShloMosaic.Lib.ValueIdx
import Idealize.ShloMosaic.PureOps.Ideal

noncomputable section

namespace Cert.KernelIdeal.NodeOps

open Cert.KernelIdeal Cert.KernelIdeal.Gen Idealize.ShloMosaic Idealize.ShloMosaic.ValueIdx
open scoped BigOperators

/-- Entry (r, k) of a node array: the row of entry `i`, column `k`. -/
abbrev rowAt (i : S100000x128.Idx) (k : Fin 128) : S100000x128.Idx := fun a => match a with
  | ⟨0, _⟩ => ⟨(i 0).val, (i 0).isLt⟩
  | ⟨1, _⟩ => ⟨k.val, k.isLt⟩
/-- Entry (k, q) of a weight matrix: row `k`, the column of entry `i`. -/
abbrev colAt (i : S100000x128.Idx) (k : Fin 128) : S128x128.Idx := fun a => match a with
  | ⟨0, _⟩ => ⟨k.val, k.isLt⟩
  | ⟨1, _⟩ => ⟨(i 1).val, (i 1).isLt⟩
/-- Entry `k` of a bias held as a one-row array. -/
abbrev biasAt (k : Fin 128) : S1x128.Idx := fun a => match a with
  | ⟨0, _⟩ => ⟨0, Nat.one_pos⟩
  | ⟨1, _⟩ => ⟨k.val, k.isLt⟩

/-- The product of a node array with a weight matrix, entry by entry: Σ_k a[r, k] · w[k, q]. -/
def dense (a : S100000x128.Idx → EReal) (w : S128x128.Idx → EReal) : S100000x128.Idx → EReal :=
  fun i => ∑ k : Fin 128, a (rowAt i k) * w (colAt i k)

/-- Bias, rectifier, product: Σ_k max(s[r, k] + b[k], 0) · w[k, q]. -/
def reluDense (s : S100000x128.Idx → EReal) (b : S1x128.Idx → EReal) (w : S128x128.Idx → EReal) : S100000x128.Idx → EReal :=
  fun i => ∑ k : Fin 128, max (s (rowAt i k) + b (biasAt k)) (Ideal.ofBits .f32 0x00000000#32) * w (colAt i k)

/-- The bias added to every row: s[r, q] + b[q]. -/
def biased (s : S100000x128.Idx → EReal) (b : S1x128.Idx → EReal) : S100000x128.Idx → EReal :=
  fun i => s i + b (biasAt ⟨(i 1).val, (i 1).isLt⟩)

end Cert.KernelIdeal.NodeOps

end
-- ==== Proof.Layer0.lean ====
/-
  The first dense layer, block by block. The node features (100000 × 128) are cut into 20 blocks of 5000 rows;
  at grid point t the body multiplies block t by the whole 128 × 128 weight matrix into a zero accumulator and
  writes the product back as block t of the result. So entry (r, q) of the result array is
  Σ_k x[r, k] · w[k, q]: row r lies in exactly one block, number r / 5000, and that block's point wrote it
  from the same row of x. The blocks' rows 5000·t … 5000·t + 4999 tile all 100000 rows, so the whole array is
  this function of the two operand arrays as the region finds them.
-/
import proofs.«140348_j49881750176158_1_alg».proof.Proof.Gen.KernelIdeal.Frame
import proofs.«140348_j49881750176158_1_alg».proof.Proof.BlockDot
import proofs.«140348_j49881750176158_1_alg».proof.Proof.NodeOps
import Idealize.ShloMosaic.Lib.Pipeline.Value
import Idealize.ShloMosaic.Lib.ValueIdx
import Idealize.ShloMosaic.PureOps.Ideal.Laws

noncomputable section

namespace Cert.KernelIdeal.Layer0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
open Cert.KernelIdeal.BlockDot Cert.KernelIdeal.NodeOps

variable (V : (c : Dev nD) → (b : Ref sig .tc) → Buf (Elt Ideal) ((c : Thread nD τ).loc b))

theorem zeros : (![0, 0] : Fin 2 → Nat) = fun _ => 0 := funext fun a => by fin_cases a <;> rfl

/-- The body's stored value at an entry of the block: the format changes are the identity, the product goes into zero. -/
theorem stored_apply (x0 : Vec Ideal S5000x128 .f32) (x1 : Vec Ideal S128x128 .f32) (j : S5000x128.Idx) :
    k0_pay1 (F := Ideal) x0 x1 j = ∑ k : Fin 128, x0 (leftAt j k) * x1 (rightAt j k) := by
  unfold k0_pay1
  exact blockDot_apply _ _ j

/-- The printed index maps over the 20 points: the feature block and the result block move together down the rows,
    the weight matrix stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays. -/
theorem flushed_eq (c : Dev nD) (t : Fin cfg0.N) :
    (dat0 V c).flushed 2 t = ((cfg0.win 2).blk t).view.read (Elt Ideal) (dense (V c main_arg0) (V c main_arg3)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨e0, e1, e2, e3, e4, e5⟩ := index_facts t
  funext j
  show k0_pay1 (F := Ideal) (iblk0 V c 0 t) (iblk0 V c 1 t) j = dense (V c main_arg0) (V c main_arg3) (((cfg0.win 2).blk t).view.emb j)
  refine (stored_apply (iblk0 V c 0 t) (iblk0 V c 1 t) j).trans ?_
  unfold dense
  refine Finset.sum_congr rfl fun k _ => ?_
  have h0 : ((cfg0.win 0).blk t).view.emb (leftAt j k) = rowAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rightAt j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [← h0, ← h1]
  rfl

/-- An entry is in point `t`'s result block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry is in some point's block: the block of its row's quotient by 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the product of the two operand arrays as the region finds them. -/
theorem final (c : Dev nD) : (dat0 V c).arrAt 2 cfg0.N = dense (V c main_arg0) (V c main_arg3) :=
  (dat0 V c).arrAt_eq_of_cover 2 (dense (V c main_arg0) (V c main_arg3)) (fun t _ => flushed_eq V c t) covered

end Cert.KernelIdeal.Layer0

end
-- ==== Proof.Layer1.lean ====
/-
  The first hidden layer, block by block. The propagated node rows (100000 × 128) are cut into 20 blocks of 5000 rows;
  at grid point t the body adds the bias row to every row of block t, takes the maximum with zero, multiplies by the
  whole 128 × 128 weight matrix into a zero accumulator and writes the product back as block t of the result. So
  entry (r, q) of the result array is Σ_k max(s[r, k] + b[k], 0) · w[k, q], read off the same row r of s: row r lies
  in exactly one block, number r / 5000. The blocks tile all rows, so the whole array is this function of the three
  operand arrays as the region finds them.
-/
import proofs.«140348_j49881750176158_1_alg».proof.Proof.Gen.KernelIdeal.Frame
import proofs.«140348_j49881750176158_1_alg».proof.Proof.BlockDot
import proofs.«140348_j49881750176158_1_alg».proof.Proof.NodeOps
import Idealize.ShloMosaic.Lib.Pipeline.Value
import Idealize.ShloMosaic.Lib.ValueIdx
import Idealize.ShloMosaic.PureOps.Ideal.Laws

noncomputable section

namespace Cert.KernelIdeal.Layer1

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
open Cert.KernelIdeal.BlockDot Cert.KernelIdeal.NodeOps

variable (V : (c : Dev nD) → (b : Ref sig .tc) → Buf (Elt Ideal) ((c : Thread nD τ).loc b))

theorem zeros : (![0, 0] : Fin 2 → Nat) = fun _ => 0 := funext fun a => by fin_cases a <;> rfl

/-- The bias row repeated down the block, at an entry: the bias at the entry's column. -/
theorem biasRows_apply (x1 : Vec Ideal S1x128 .f32) (j : S5000x128.Idx) (k : Fin 128) :
    broadcastTo S5000x128 (shapeCast S1x128 x1 shapeCasts_S1x128_S1x128) broadcasts_S1x128_S5000x128 (leftAt j k) = x1 (biasAt k) := by
  rw [shapeCast_self]
  exact broadcastTo_apply x1 broadcasts_S1x128_S5000x128 (leftAt j k) (biasAt k) (fun a => by
    match a with
    | ⟨0, _⟩ => rfl
    | ⟨1, _⟩ => rfl)

/-- The body's stored value at an entry of the block. -/
theorem stored_apply (x0 : Vec Ideal S5000x128 .f32) (x1 : Vec Ideal S1x128 .f32) (x2 : Vec Ideal S128x128 .f32) (j : S5000x128.Idx) :
    k1_pay1 (F := Ideal) x0 x1 x2 j
      = ∑ k : Fin 128, max (x0 (leftAt j k) + x1 (biasAt k)) (Ideal.ofBits .f32 0x00000000#32) * x2 (rightAt j k) := by
  unfold k1_pay1
  refine (blockDot_apply _ _ j).trans ?_
  refine Finset.sum_congr rfl fun k _ => ?_
  have hb := biasRows_apply x1 j k
  simp only [truncf_apply, maximumf_apply, addf_apply, broadcast_apply, shapeCast_self] at hb ⊢
  rw [hb]
  rfl

/-- The printed index maps over the 20 points: the row blocks move together, the bias row and the matrix stay. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer's function of the three operand arrays. -/
theorem flushed_eq (c : Dev nD) (t : Fin cfg1.N) :
    (dat1 V c).flushed 3 t = ((cfg1.win 3).blk t).view.read (Elt Ideal) (reluDense (V c main_v43) (V c main_v44) (V c main_arg5)) := by
  show (cfg1.win 3).cut (grid1.coords t) ((dat1 V c).after 3 t) = _
  rw [after1_3]
  unfold out1_3
  rw [View.canon_unit_zero zeros]
  simp only [View.ld_unit_zero (S := S5000x128) zeros, View.ld_unit_zero (S := S1x128) zeros, View.ld_unit_zero (S := S128x128) zeros]
  obtain ⟨e0, e1, e2, e3, e4, e5, e6, e7⟩ := index_facts t
  funext j
  show k1_pay1 (F := Ideal) (iblk1 V c 0 t) (iblk1 V c 1 t) (iblk1 V c 2 t) j = reluDense (V c main_v43) (V c main_v44) (V c main_arg5) (((cfg1.win 3).blk t).view.emb j)
  refine (stored_apply (iblk1 V c 0 t) (iblk1 V c 1 t) (iblk1 V c 2 t) j).trans ?_
  unfold reluDense
  refine Finset.sum_congr rfl fun k _ => ?_
  have h0 : ((cfg1.win 0).blk t).view.emb (leftAt j k) = rowAt (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (biasAt k) = biasAt k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (rightAt j k) = colAt (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [← h0, ← h2]
  conv_rhs => rw [← h1]
  rfl

/-- An entry is in point `t`'s result block iff each coordinate is in the block's range on its axis. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every entry is in some point's block: the block of its row's quotient by 5000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨e0, e1, e2, e3, e4, e5, e6, e7⟩ := index_facts t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region: the layer's function of the three operand arrays as the region finds them. -/
theorem final (c : Dev nD) : (dat1 V c).arrAt 3 cfg1.N = reluDense (V c main_v43) (V c main_v44) (V c main_arg5) :=
  (dat1 V c).arrAt_eq_of_cover 3 (reluDense (V c main_v43) (V c main_v44) (V c main_arg5)) (fun t _ => flushed_eq V c t) covered

end Cert.KernelIdeal.Layer1

end
-- ==== Proof.Layer2.lean ====
/-
  The second hidden layer, block by block. The propagated node rows (100000 × 128) are cut into 20 blocks of 5000 rows;
  at grid point t the body adds the bias row to every row of block t, takes the maximum with zero, multiplies by the
  whole 128 × 128 weight matrix into a zero accumulator and writes the product back as block t of the result. So
  entry (r, q) of the result array is Σ_k max(s[r, k] + b[k], 0) · w[k, q], read off the same row r of s: row r lies
  in exactly one block, number r / 5000. The blocks tile all rows, so the whole array is this function of the three
  operand arrays as the region finds them.
-/
import proofs.«140348_j49881750176158_1_alg».proof.Proof.Gen.KernelIdeal.Frame
import proofs.«140348_j49881750176158_1_alg».proof.Proof.BlockDot
import proofs.«140348_j49881750176158_1_alg».proof.Proof.NodeOps
import Idealize.ShloMosaic.Lib.Pipeline.Value
import Idealize.ShloMosaic.Lib.ValueIdx
import Idealize.ShloMosaic.PureOps.Ideal.Laws

noncomputable section

namespace Cert.KernelIdeal.Layer2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
open Cert.KernelIdeal.BlockDot Cert.KernelIdeal.NodeOps

variable (V : (c : Dev nD) → (b : Ref sig .tc) → Buf (Elt Ideal) ((c : Thread nD τ).loc b))

theorem zeros : (![0, 0] : Fin 2 → Nat) = fun _ => 0 := funext fun a => by fin_cases a <;> rfl

/-- The bias row repeated down the block, at an entry: the bias at the entry's column. -/
theorem biasRows_apply (x1 : Vec Ideal S1x128 .f32) (j : S5000x128.Idx) (k : Fin 128) :
    broadcastTo S5000x128 (shapeCast S1x128 x1 shapeCasts_S1x128_S1x128) broadcasts_S1x128_S5000x128 (leftAt j k) = x1 (biasAt k) := by
  rw [shapeCast_self]
  exact broadcastTo_apply x1 broadcasts_S1x128_S5000x128 (leftAt j k) (biasAt k) (fun a => by
    match a with
    | ⟨0, _⟩ => rfl
    | ⟨1, _⟩ => rfl)

/-- The body's stored value at an entry of the block. -/
theorem stored_apply (x0 : Vec Ideal S5000x128 .f32) (x1 : Vec Ideal S1x128 .f32) (x2 : Vec Ideal S128x128 .f32) (j : S5000x128.Idx) :
    k2_pay1 (F := Ideal) x0 x1 x2 j
      = ∑ k : Fin 128, max (x0 (leftAt j k) + x1 (biasAt k)) (Ideal.ofBits .f32 0x00000000#32) * x2 (rightAt j k) := by
  unfold k2_pay1
  refine (blockDot_apply _ _ j).trans ?_
  refine Finset.sum_congr rfl fun k _ => ?_
  have hb := biasRows_apply x1 j k
  simp only [truncf_apply, maximumf_apply, addf_apply, broadcast_apply, shapeCast_self] at hb ⊢
  rw [hb]
  rfl

/-- The printed index maps over the 20 points: the row blocks move together, the bias row and the matrix stay. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the layer's function of the three operand arrays. -/
theorem flushed_eq (c : Dev nD) (t : Fin cfg2.N) :
    (dat2 V c).flushed 3 t = ((cfg2.win 3).blk t).view.read (Elt Ideal) (reluDense (V c main_v58) (V c main_v59) (V c main_arg7)) := by
  show (cfg2.win 3).cut (grid2.coords t) ((dat2 V c).after 3 t) = _
  rw [after2_3]
  unfold out2_3
  rw [View.canon_unit_zero zeros]
  simp only [View.ld_unit_zero (S := S5000x128) zeros, View.ld_unit_zero (S := S1x128) zeros, View.ld_unit_zero (S := S128x128) zeros]
  obtain ⟨e0, e1, e2, e3, e4, e5, e6, e7⟩ := index_facts t
  funext j
  show k2_pay1 (F := Ideal) (iblk2 V c 0 t) (iblk2 V c 1 t) (iblk2 V c 2 t) j = reluDense (V c main_v58) (V c main_v59) (V c main_arg7) (((cfg2.win 3).blk t).view.emb j)
  refine (stored_apply (iblk2 V c 0 t) (iblk2 V c 1 t) (iblk2 V c 2 t) j).trans ?_
  unfold reluDense
  refine Finset.sum_congr rfl fun k _ => ?_
  have h0 : ((cfg2.win 0).blk t).view.emb (leftAt j k) = rowAt (((cfg2.win 3).blk t).view.emb j) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : ((cfg2.win 1).blk t).view.emb (biasAt k) = biasAt k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ((cfg2.win 2).blk t).view.emb (rightAt j k) = colAt (((cfg2.win 3).blk t).view.emb j) k := by
    funext a; apply Fin.ext
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega
  rw [← h0, ← h2]
  conv_rhs => rw [← h1]
  rfl

/-- An entry is in point `t`'s result block iff each coordinate is in the block's range on its axis. -/
theorem mem_block (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v60).slice (win2_3.rect t)).set ↔ _
  rw [View.set_slice_whole, Rect.mem_set_unit]
  exact Iff.rfl

/-- Every entry is in some point's block: the block of its row's quotient by 5000. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨e0, e1, e2, e3, e4, e5, e6, e7⟩ := index_facts t
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the region: the layer's function of the three operand arrays as the region finds them. -/
theorem final (c : Dev nD) : (dat2 V c).arrAt 3 cfg2.N = reluDense (V c main_v58) (V c main_v59) (V c main_arg7) :=
  (dat2 V c).arrAt_eq_of_cover 3 (reluDense (V c main_v58) (V c main_v59) (V c main_arg7)) (fun t _ => flushed_eq V c t) covered

end Cert.KernelIdeal.Layer2

end
-- ==== Proof.Layer3.lean ====
/-
  The last convolution's bias, block by block. The propagated node rows (100000 × 128) are cut into 20 blocks of 5000
  rows; at grid point t the body adds the bias row to every row of block t and writes the sum back as block t of the
  result. So entry (r, q) of the result array is s[r, q] + b[q]; the blocks tile all rows, so the whole array is this
  function of the two operand arrays as the region finds them.
-/
import proofs.«140348_j49881750176158_1_alg».proof.Proof.Gen.KernelIdeal.Frame
import proofs.«140348_j49881750176158_1_alg».proof.Proof.NodeOps
import Idealize.ShloMosaic.Lib.Pipeline.Value
import Idealize.ShloMosaic.Lib.ValueIdx
import Idealize.ShloMosaic.PureOps.Ideal.Laws

noncomputable section

namespace Cert.KernelIdeal.Layer3

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
open Cert.KernelIdeal.NodeOps

variable (V : (c : Dev nD) → (b : Ref sig .tc) → Buf (Elt Ideal) ((c : Thread nD τ).loc b))

theorem zeros : (![0, 0] : Fin 2 → Nat) = fun _ => 0 := funext fun a => by fin_cases a <;> rfl

/-- The column of a block entry, as a column of the bias. -/
abbrev colOf (j : S5000x128.Idx) : Fin 128 := ⟨(j 1).val, (j 1).isLt⟩

/-- The bias row repeated down the block, at an entry: the bias at the entry's column. -/
theorem biasRows_apply (x1 : Vec Ideal S1x128 .f32) (j : S5000x128.Idx) :
    broadcastTo S5000x128 (shapeCast S1x128 x1 shapeCasts_S1x128_S1x128) broadcasts_S1x128_S5000x128 j = x1 (biasAt (colOf j)) := by
  rw [shapeCast_self]
  exact broadcastTo_apply x1 broadcasts_S1x128_S5000x128 j (biasAt (colOf j)) (fun a => by
    match a with
    | ⟨0, _⟩ => rfl
    | ⟨1, _⟩ => rfl)

/-- The body's stored value at an entry of the block. -/
theorem stored_apply (x0 : Vec Ideal S5000x128 .f32) (x1 : Vec Ideal S1x128 .f32) (j : S5000x128.Idx) :
    k3_pay1 (F := Ideal) x0 x1 j = x0 j + x1 (biasAt (colOf j)) := by
  unfold k3_pay1
  have hb := biasRows_apply x1 j
  simp only [addf_apply, shapeCast_self] at hb ⊢
  rw [hb]

/-- The printed index maps over the 20 points: the row blocks move together, the bias row stays. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the biased array. -/
theorem flushed_eq (c : Dev nD) (t : Fin cfg3.N) :
    (dat3 V c).flushed 2 t = ((cfg3.win 2).blk t).view.read (Elt Ideal) (biased (V c main_v73) (V c main_v74)) := by
  show (cfg3.win 2).cut (grid3.coords t) ((dat3 V c).after 2 t) = _
  rw [after3_2]
  unfold out3_2
  rw [View.canon_unit_zero zeros]
  simp only [View.ld_unit_zero (S := S5000x128) zeros, View.ld_unit_zero (S := S1x128) zeros]
  obtain ⟨e0, e1, e2, e3, e4, e5⟩ := index_facts t
  funext j
  show k3_pay1 (F := Ideal) (iblk3 V c 0 t) (iblk3 V c 1 t) j = biased (V c main_v73) (V c main_v74) (((cfg3.win 2).blk t).view.emb j)
  refine (stored_apply (iblk3 V c 0 t) (iblk3 V c 1 t) j).trans ?_
  unfold biased
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (biasAt (colOf j))
      = biasAt ⟨((((cfg3.win 2).blk t).view.emb j) 1).val, ((((cfg3.win 2).blk t).view.emb j) 1).isLt⟩ := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [← h1, ← h0]
  rfl

/-- An entry is in point `t`'s result block iff each coordinate is in the block's range on its axis. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v75).slice (win3_2.rect t)).set ↔ _
  rw [View.set_slice_whole, Rect.mem_set_unit]
  exact Iff.rfl

/-- Every entry is in some point's block: the block of its row's quotient by 5000. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨e0, e1, e2, e3, e4, e5⟩ := index_facts t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the region: the biased array of the two operand arrays as the region finds them. -/
theorem final (c : Dev nD) : (dat3 V c).arrAt 2 cfg3.N = biased (V c main_v73) (V c main_v74) :=
  (dat3 V c).arrAt_eq_of_cover 2 (biased (V c main_v73) (V c main_v74)) (fun t _ => flushed_eq V c t) covered

end Cert.KernelIdeal.Layer3

end
-- ==== Proof.Head.lean ====
/-
  The classifier, in one block. The 64 × 128 embeddings, the 128 × 10 weight matrix and the bias row are each one
  whole block at the single grid point; the body multiplies the embeddings by the matrix into a zero accumulator, adds
  the bias row to every row and writes the 64 × 10 result back whole. So entry (g, q) of the result array is
  Σ_k e[g, k] · w[k, q] + b[q], a function of the three operand arrays as the region finds them.
-/
import proofs.«140348_j49881750176158_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Head

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- Entry (g, k) of the embeddings: the row of entry `j`, column `k`. -/
abbrev embAt (j : S64x10.Idx) (k : Fin 128) : S64x128.Idx := fun a => match a with
  | ⟨0, _⟩ => ⟨(j 0).val, (j 0).isLt⟩
  | ⟨1, _⟩ => ⟨k.val, k.isLt⟩
/-- Entry (k, q) of the classifier's matrix: row `k`, the column of entry `j`. -/
abbrev matAt (j : S64x10.Idx) (k : Fin 128) : S128x10.Idx := fun a => match a with
  | ⟨0, _⟩ => ⟨k.val, k.isLt⟩
  | ⟨1, _⟩ => ⟨(j 1).val, (j 1).isLt⟩
/-- The bias at the column of entry `j`, the bias held as a one-row array. -/
abbrev biasOf (j : S64x10.Idx) : S1x10.Idx := fun a => match a with
  | ⟨0, _⟩ => ⟨0, Nat.one_pos⟩
  | ⟨1, _⟩ => ⟨(j 1).val, (j 1).isLt⟩

/-- The classifier, entry by entry: Σ_k e[g, k] · w[k, q] + b[q]. -/
def linear (e : S64x128.Idx → EReal) (w : S128x10.Idx → EReal) (b : S1x10.Idx → EReal) : S64x10.Idx → EReal :=
  fun j => (∑ k : Fin 128, e (embAt j k) * w (matAt j k)) + b (biasOf j)

theorem lhs0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem lhs1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem rhs0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem rhs1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The product into a zero accumulator at entry `j`: the sum over the contracted coordinate. -/
theorem product_apply {φ₁ φ₂ : FTy} (a : FVec Ideal S64x128 φ₁) (w : FVec Ideal S128x10 φ₂) (j : S64x10.Idx) :
    matmul (F := Ideal) dot_S64x128_S128x10_S64x10_1_0_0_1_n_n none a w (constant S64x10 .f32 0x00000000#32) j
      = ∑ k : Fin 128, a (embAt j k) * w (matAt j k) := by
  simp only [matmul]
  rw [Ideal.matmul_constant_zero_apply, ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx j ((contrEquiv1 dot_S64x128_S128x10_S64x10_1_0_0_1_n_n 128 rfl rfl).symm k) = embAt j k := funext fun a => Fin.ext (by
    match a with
    | ⟨0, _⟩ => exact lhs0 _ _
    | ⟨1, _⟩ => exact (lhs1 _ _).trans hk)
  have er : dot_S64x128_S128x10_S64x10_1_0_0_1_n_n.rhsIdx j ((contrEquiv1 dot_S64x128_S128x10_S64x10_1_0_0_1_n_n 128 rfl rfl).symm k) = matAt j k := funext fun a => Fin.ext (by
    match a with
    | ⟨0, _⟩ => exact (rhs0 _ _).trans hk
    | ⟨1, _⟩ => exact rhs1 _ _)
  rw [el, er]

theorem zeros : (![0, 0] : Fin 2 → Nat) = fun _ => 0 := funext fun a => by fin_cases a <;> rfl

/-- The bias row repeated down the rows, at an entry: the bias at the entry's column. -/
theorem biasRows_apply (x2 : Vec Ideal S1x10 .f32) (j : S64x10.Idx) :
    broadcastTo S64x10 (shapeCast S1x10 x2 shapeCasts_S1x10_S1x10) broadcasts_S1x10_S64x10 j = x2 (biasOf j) := by
  rw [shapeCast_self]
  exact broadcastTo_apply x2 broadcasts_S1x10_S64x10 j (biasOf j) (fun a => by
    match a with
    | ⟨0, _⟩ => rfl
    | ⟨1, _⟩ => rfl)

/-- The body's stored value at an entry. -/
theorem stored_apply (x0 : Vec Ideal S64x128 .f32) (x1 : Vec Ideal S128x10 .f32) (x2 : Vec Ideal S1x10 .f32) (j : S64x10.Idx) :
    k4_pay1 (F := Ideal) x0 x1 x2 j = (∑ k : Fin 128, x0 (embAt j k) * x1 (matAt j k)) + x2 (biasOf j) := by
  unfold k4_pay1
  have hb := biasRows_apply x2 j
  have hp := product_apply (truncf .bf16 (shapeCast S64x128 x0 shapeCasts_S64x128_S64x128) bitsLt_bf16_f32) (truncf .bf16 x1 bitsLt_bf16_f32) j
  simp only [addf_apply, truncf_apply, shapeCast_self] at hb hp ⊢
  rw [hb, hp]

/-- The printed index maps at the one point: every block is its whole array. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the point writes back is the classifier's function of the three operand arrays, read through the block. -/
theorem flushed_eq (c : Dev nD) (t : Fin cfg4.N) :
    (dat4 V c).flushed 3 t = ((cfg4.win 3).blk t).view.read (Elt Ideal) (linear (V c main_v87) (V c main_arg9) (V c main_v88)) := by
  show (cfg4.win 3).cut (grid4.coords t) ((dat4 V c).after 3 t) = _
  rw [after4_3]
  unfold out4_3
  rw [View.canon_unit_zero zeros]
  simp only [View.ld_unit_zero (S := S64x128) zeros, View.ld_unit_zero (S := S128x10) zeros, View.ld_unit_zero (S := S1x10) zeros]
  obtain ⟨e0, e1, e2, e3, e4, e5, e6, e7⟩ := index_facts t
  funext j
  show k4_pay1 (F := Ideal) (iblk4 V c 0 t) (iblk4 V c 1 t) (iblk4 V c 2 t) j = linear (V c main_v87) (V c main_arg9) (V c main_v88) (((cfg4.win 3).blk t).view.emb j)
  refine (stored_apply (iblk4 V c 0 t) (iblk4 V c 1 t) (iblk4 V c 2 t) j).trans ?_
  unfold linear
  have h2 : ((cfg4.win 2).blk t).view.emb (biasOf j) = biasOf (((cfg4.win 3).blk t).view.emb j) := by
    funext a; apply Fin.ext
    match a with
    | ⟨0, _⟩ => show win4_2.index t (0 : Fin 2) * 1 + 1 * 0 = 0; omega
    | ⟨1, _⟩ => show win4_2.index t (1 : Fin 2) * 10 + 1 * (j 1).val = win4_3.index t (1 : Fin 2) * 10 + 1 * (j 1).val; omega
  have hs : ∀ k : Fin 128, ((cfg4.win 0).blk t).view.emb (embAt j k) = embAt (((cfg4.win 3).blk t).view.emb j) k
      ∧ ((cfg4.win 1).blk t).view.emb (matAt j k) = matAt (((cfg4.win 3).blk t).view.emb j) k := fun k => by
    constructor
    · funext a; apply Fin.ext
      match a with
      | ⟨0, _⟩ => show win4_0.index t (0 : Fin 2) * 64 + 1 * (j 0).val = win4_3.index t (0 : Fin 2) * 64 + 1 * (j 0).val; omega
      | ⟨1, _⟩ => show win4_0.index t (1 : Fin 2) * 128 + 1 * k.val = k.val; omega
    · funext a; apply Fin.ext
      match a with
      | ⟨0, _⟩ => show win4_1.index t (0 : Fin 2) * 128 + 1 * k.val = k.val; omega
      | ⟨1, _⟩ => show win4_1.index t (1 : Fin 2) * 10 + 1 * (j 1).val = win4_3.index t (1 : Fin 2) * 10 + 1 * (j 1).val; omega
  rw [← h2]
  refine congrArg₂ (fun a b : EReal => a + b) (Finset.sum_congr rfl fun k _ => ?_) rfl
  rw [← (hs k).1, ← (hs k).2]
  rfl

/-- An entry is in the point's result block iff each coordinate is in the block's range on its axis. -/
theorem mem_block (t : Fin cfg4.N) (i : S64x10.Idx) :
    i ∈ ((cfg4.win 3).blk t).view.set ↔ ∀ a : Fin 2, win4_3.index t a * S64x10.size a ≤ (i a).val ∧ (i a).val < win4_3.index t a * S64x10.size a + S64x10.size a := by
  show i ∈ ((View.whole main_v89).slice (win4_3.rect t)).set ↔ _
  rw [View.set_slice_whole, Rect.mem_set_unit]
  exact Iff.rfl

/-- Every entry is in the one point's block. -/
theorem covered (i : S64x10.Idx) :
    ∃ t : Fin cfg4.N, (cfg4.win 3).flush t = true ∧ i ∈ ((cfg4.win 3).blk t).view.set := by
  have hi0 : (i 0).val < 64 := (i 0).isLt
  have hi1 : (i 1).val < 10 := (i 1).isLt
  obtain ⟨e0, e1, e2, e3, e4, e5, e6, e7⟩ := index_facts t4_0
  refine ⟨t4_0, flush4_3 t4_0, ?_⟩
  rw [mem_block]
  intro a
  match a with
  | ⟨0, _⟩ => show win4_3.index t4_0 (0 : Fin 2) * 64 ≤ (i 0).val ∧ (i 0).val < win4_3.index t4_0 (0 : Fin 2) * 64 + 64; omega
  | ⟨1, _⟩ => show win4_3.index t4_0 (1 : Fin 2) * 10 ≤ (i 1).val ∧ (i 1).val < win4_3.index t4_0 (1 : Fin 2) * 10 + 10; omega

/-- The result array after the region: the classifier's function of the three operand arrays as the region finds them. -/
theorem final (c : Dev nD) : (dat4 V c).arrAt 3 cfg4.N = linear (V c main_v87) (V c main_arg9) (V c main_v88) :=
  (dat4 V c).arrAt_eq_of_cover 3 (linear (V c main_v87) (V c main_arg9) (V c main_v88)) (fun t _ => flushed_eq V c t) covered

end Cert.KernelIdeal.Head

end
-- ==== Proof.GraphOps.lean ====
/-
  The graph convolution network as the reference writes it, in pieces, for any float values.
  A message goes along every edge and along a self-loop at every node; a node's degree counts the messages that
  target it; a message's weight is deg^(-1/2) of its source times deg^(-1/2) of its target. One convolution
  multiplies the node rows by a weight matrix, passes the messages (each carries its source's row times its weight,
  a node sums what targets it) and adds a bias; the network is three convolutions, a rectifier after the first two,
  the mean of the node rows over each graph, and a linear classifier on that mean. These are the reference's
  own operations, grouped and named; nothing is proved here.
-/
import proofs.«140348_j49881750176158_1_alg».proof.Proof.Gen.ReferenceIdeal

noncomputable section

namespace Cert.ReferenceIdeal.Graph

open Cert.ReferenceIdeal Cert.ReferenceIdeal.Gen Idealize.ShloMosaic

variable {F : FTy → Type} [FloatOps F]

/-- The source node of every message: the 1600000 edges' sources, then every node once (its self-loop). -/
def srcs (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target node of every message: the edges' targets, then every node once. -/
def dsts (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as gather indices: a negative number counts from the end (100000 is added), as a column of start indices. -/
def wrapped (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A node's degree: one for every message that targets it. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dsts e)) (broadcastInDim S1700000 ![] bcast_S_S1700000 (constant S_ .f32 0x3F800000#32))

/-- Whether a node's degree is positive. -/
def hasMessages (e : (⟨S2x1600000, .i32⟩ : BufTy).Contents (Elt F)) : (⟨S100000, .i1⟩ : BufTy).Contents (Elt F) :=
  cmpf (F := F) .ogt (degree e) (broadcastInDim S100000 ![] bcast_S_S100000 (constant S_ .f32 0x00000000#32))

/-- The degree, with 1 in place of a degree that is not positive. -/
def safeDegree (e : (⟨S2x1600000, .i32⟩ : BufTy).Contents (Elt F)) : (⟨S100000, .f32⟩ : BufTy).Contents (Elt F) :=
  select (hasMessages e) (degree e) (broadcastInDim S100000 ![] bcast_S_S100000 (id (constant S_ .f32 0x3F800000#32)))

/-- deg^(-1/2) of that. -/
def invSqrtDegree (e : (⟨S2x1600000, .i32⟩ : BufTy).Contents (Elt F)) : (⟨S100000, .f32⟩ : BufTy).Contents (Elt F) :=
  Host.rsqrt (safeDegree e)

/-- A message's weight: deg^(-1/2) of its source times deg^(-1/2) of its target. -/
def weight (e : (⟨S2x1600000, .i32⟩ : BufTy).Contents (Elt F)) : (⟨S1700000, .f32⟩ : BufTy).Contents (Elt F) :=
  mulf (Host.gather gather_S100000_S1700000x1_S1700000_n_0_n_n_0_1_1 (invSqrtDegree e) (wrapped (srcs e))) (Host.gather gather_S100000_S1700000x1_S1700000_n_0_n_n_0_1_1 (invSqrtDegree e) (wrapped (dsts e)))

/-- One round of message passing: every message carries its source's row times its weight, and a node sums the
    messages that target it. -/
def propagate (e : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dsts e)) (mulf (Host.gather gather_S100000x128_S1700000x1_S1700000x128_1_0_n_n_0_1_1128 h (wrapped (srcs e))) (broadcastInDim S1700000x128 ![0, 1] bcast_S1700000x1_S1700000x128_0_1 (broadcastInDim S1700000x1 ![0] bcast_S1700000_S1700000x1_0 (weight e))))

/-- The mean of the node rows of each of the 64 graphs (a graph without nodes divides by 1). -/
def meanPool (batch : (⟨S100000, .i32⟩ : BufTy).Contents (Elt F)) (h : (⟨S100000x128, .f32⟩ : BufTy).Contents (Elt F)) : (⟨S64x128, .f32⟩ : BufTy).Contents (Elt F) :=
  Host.divf (Host.scatterAdd scatter_S64x128_S100000x1_S100000x128_1_0_0_1 (broadcastInDim S64x128 ![] bcast_S_S64x128 (constant S_ .f32 0x00000000#32)) (broadcastInDim S100000x1 ![0] bcast_S100000_S100000x1_0 batch) h) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))

/-- The reference's dense product of the node rows with a weight matrix. -/
def mm (a : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none a w

/-- A bias vector repeated down the rows. -/
def rowsOf (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- max(·, 0), entry by entry. -/
def relu (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The three convolutions and the pooling: the graph embeddings. -/
def embedding (x : (⟨S100000x128, .f32⟩ : BufTy).Contents (Elt F)) (e : (⟨S2x1600000, .i32⟩ : BufTy).Contents (Elt F)) (batch : (⟨S100000, .i32⟩ : BufTy).Contents (Elt F))
    (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) : (⟨S64x128, .f32⟩ : BufTy).Contents (Elt F) :=
  meanPool batch (addf (propagate e (mm (relu (addf (propagate e (mm (relu (addf (propagate e (mm x w1)) (rowsOf b1))) w2)) (rowsOf b2))) w3)) (rowsOf b3))

/-- The classifier on an embedding. -/
def classify (emb : (⟨S64x128, .f32⟩ : BufTy).Contents (Elt F)) (wl : (⟨S128x10, .f32⟩ : BufTy).Contents (Elt F)) (bl : (⟨S10, .f32⟩ : BufTy).Contents (Elt F)) : (⟨S64x10, .f32⟩ : BufTy).Contents (Elt F) :=
  addf (Host.dotGeneral dot_S64x128_S128x10_S64x10_1_0_0_1_n_n none emb wl) (broadcastInDim S64x10 ![0, 1] bcast_S1x10_S64x10_0_1 (broadcastInDim S1x10 ![1] bcast_S10_S1x10_1 bl))

end Cert.ReferenceIdeal.Graph

end
-- ==== Proof.BiasRow.lean ====
/-
  A bias vector as a one-row array. The kernel's host side reshapes each bias vector (128 entries, or the classifier's
  10) to one row before a region reads it; the reshape keeps the row-major order, so the row holds the vector's entry k
  at column k.
-/
import proofs.«140348_j49881750176158_1_alg».proof.Proof.NodeOps
import proofs.«140348_j49881750176158_1_alg».proof.Proof.Head
import Idealize.ShloMosaic.Lib.Pipeline.Value
import Idealize.ShloMosaic.Lib.ValueIdx

noncomputable section

namespace Cert.KernelIdeal.BiasRow

open Cert.KernelIdeal Cert.KernelIdeal.Gen Cert.KernelIdeal.NodeOps Cert.KernelIdeal.Head Idealize.ShloMosaic Idealize.ShloMosaic.ValueIdx

/-- A layer's bias as one row. -/
def oneRow (b : S128.Idx → EReal) : S1x128.Idx → EReal := shapeCast S1x128 b shapeCasts_S128_S1x128

/-- The classifier's bias as one row. -/
def oneRow10 (b : S10.Idx → EReal) : S1x10.Idx → EReal := shapeCast S1x10 b shapeCasts_S10_S1x10

/-- The row holds the vector's entry `k` at column `k`. -/
theorem oneRow_apply (b : S128.Idx → EReal) (k : Fin 128) : oneRow b (biasAt k) = b (ix1 k) :=
  shapeCast_apply b shapeCasts_S128_S1x128 (biasAt k) (ix1 k) (by
    rewrite [Shape.rowMajor_val_two, Shape.rowMajor_val_one]
    show k.val = 0 * 128 + k.val
    omega)

/-- The classifier's row holds the vector's entry at the column of a result entry. -/
theorem oneRow10_apply (b : S10.Idx → EReal) (j : S64x10.Idx) : oneRow10 b (biasOf j) = b (ix1 ⟨(j 1).val, (j 1).isLt⟩) :=
  shapeCast_apply b shapeCasts_S10_S1x10 (biasOf j) (ix1 ⟨(j 1).val, (j 1).isLt⟩) (by
    rewrite [Shape.rowMajor_val_two, Shape.rowMajor_val_one]
    show (j 1).val = 0 * 10 + (j 1).val
    omega)

end Cert.KernelIdeal.BiasRow

end
-- ==== Proof.Stages.lean ====
/-
  What the kernel's buffers hold at the segment boundaries, as the network's pieces of the arguments.
  Before the first region the host side computes, once, the messages' sources and targets, the degrees, deg^(-1/2)
  and the messages' weights; each is the reference's own definition of the edge array. Then, layer by layer: a region's
  output array is its layer's function (`dense`, `reluDense`, `biased`, `linear`) of the arrays it finds, and the
  stretch after it is a message pass over the sources, targets and weights it reads back unchanged, or the pooling.
-/
import proofs.«140348_j49881750176158_1_alg».proof.Proof.Fold
import proofs.«140348_j49881750176158_1_alg».proof.Proof.Layer0
import proofs.«140348_j49881750176158_1_alg».proof.Proof.Layer1
import proofs.«140348_j49881750176158_1_alg».proof.Proof.Layer2
import proofs.«140348_j49881750176158_1_alg».proof.Proof.Layer3
import proofs.«140348_j49881750176158_1_alg».proof.Proof.Head
import proofs.«140348_j49881750176158_1_alg».proof.Proof.GraphOps
import proofs.«140348_j49881750176158_1_alg».proof.Proof.BiasRow
import Idealize.ShloMosaic.Lib.StableHlo.Run

noncomputable section

namespace Cert.KernelIdeal.Stages

open Cert.KernelIdeal Cert.KernelIdeal.Gen Cert.KernelIdeal.Fold Cert.KernelIdeal.NodeOps
open Idealize.ShloMosaic Idealize.ShloMosaic.TcCoe Idealize.SL.Sem Idealize.ShloMosaic.StableHlo
open Cert.ReferenceIdeal.Graph Cert.KernelIdeal.BiasRow Cert.KernelIdeal.Head

variable (m : (ℓ : Loc nD τ sig) → Buf (Elt Ideal) ℓ) (ρ : Dev nD → PrngReg)

/-! ## The node features after each step, as functions of the arguments -/

/-- After the first region: x · W1. -/
def feat1 (c : Dev nD) : S100000x128.Idx → EReal := dense (m ((c : Thread nD τ).loc main_arg0)) (m ((c : Thread nD τ).loc main_arg3))
/-- After the first message pass. -/
def sum1 (c : Dev nD) : S100000x128.Idx → EReal := propagate (F := Ideal) (m ((c : Thread nD τ).loc main_arg1)) (feat1 m c)
/-- After the second region: max(sum1 + b1, 0) · W2. -/
def feat2 (c : Dev nD) : S100000x128.Idx → EReal := reluDense (sum1 m c) (oneRow (m ((c : Thread nD τ).loc main_arg4))) (m ((c : Thread nD τ).loc main_arg5))
/-- After the second message pass. -/
def sum2 (c : Dev nD) : S100000x128.Idx → EReal := propagate (F := Ideal) (m ((c : Thread nD τ).loc main_arg1)) (feat2 m c)
/-- After the third region: max(sum2 + b2, 0) · W3. -/
def feat3 (c : Dev nD) : S100000x128.Idx → EReal := reluDense (sum2 m c) (oneRow (m ((c : Thread nD τ).loc main_arg6))) (m ((c : Thread nD τ).loc main_arg7))
/-- After the third message pass. -/
def sum3 (c : Dev nD) : S100000x128.Idx → EReal := propagate (F := Ideal) (m ((c : Thread nD τ).loc main_arg1)) (feat3 m c)
/-- After the fourth region: sum3 + b3. -/
def feat4 (c : Dev nD) : S100000x128.Idx → EReal := biased (sum3 m c) (oneRow (m ((c : Thread nD τ).loc main_arg8)))
/-- The graph embeddings: the mean of the node rows over each graph. -/
def emb (c : Dev nD) : S64x128.Idx → EReal := meanPool (F := Ideal) (m ((c : Thread nD τ).loc main_arg2)) (feat4 m c)
/-- The logits: the classifier on the embeddings. -/
def logit (c : Dev nD) : S64x10.Idx → EReal := linear (emb m c) (m ((c : Thread nD τ).loc main_arg9)) (oneRow10 (m ((c : Thread nD τ).loc main_arg10)))

/-! ## Before the first region: the edge data, computed once -/

theorem srcs_at1 (c : Dev nD) : W1 m ρ c (Proc.devRef .tc main_v5) = srcs (F := Ideal) (m ((c : Thread nD τ).loc main_arg1)) := by
  show StableHlo.after hostOps0 (W0 m ρ c) (Proc.devRef .tc main_v5) = _
  after_results
  rfl
theorem dsts_at1 (c : Dev nD) : W1 m ρ c (Proc.devRef .tc main_v6) = dsts (F := Ideal) (m ((c : Thread nD τ).loc main_arg1)) := by
  show StableHlo.after hostOps0 (W0 m ρ c) (Proc.devRef .tc main_v6) = _
  after_results
  rfl
theorem degree_at1 (c : Dev nD) : W1 m ρ c (Proc.devRef .tc main_v10) = degree (F := Ideal) (m ((c : Thread nD τ).loc main_arg1)) := by
  show StableHlo.after hostOps0 (W0 m ρ c) (Proc.devRef .tc main_v10) = _
  after_results
  rfl
theorem hasMessages_at1 (c : Dev nD) : W1 m ρ c (Proc.devRef .tc main_v12) = hasMessages (F := Ideal) (m ((c : Thread nD τ).loc main_arg1)) := by
  show StableHlo.after hostOps0 (W0 m ρ c) (Proc.devRef .tc main_v12) = _
  after_results
  rfl
theorem one_at1 (c : Dev nD) : W1 m ρ c (Proc.devRef .tc main_cst_2) = constant (F := Ideal) S_ .f32 0x3F800000#32 := by
  show StableHlo.after hostOps0 (W0 m ρ c) (Proc.devRef .tc main_cst_2) = _
  after_results

/-- The choice between a degree and 1, read through the called function's typed references: the transports along
    the references' types are identities. -/
theorem where_read (a : (⟨S100000, .i1⟩ : BufTy).Contents (Elt Ideal)) (b : (⟨S100000, .f32⟩ : BufTy).Contents (Elt Ideal)) (x : (⟨S_, .f32⟩ : BufTy).Contents (Elt Ideal)) :
    (TRef.of (sig := sig) (T := ⟨S100000, .f32⟩) main_v13).toBuf (select ((TRef.of (sig := sig) (T := ⟨S100000, .i1⟩) main_v12).ofBuf a) ((TRef.of (sig := sig) (T := ⟨S100000, .f32⟩) main_v10).ofBuf b)
      ((TRef.of (sig := sig) (T := ⟨S100000, .f32⟩) main_call0_v1).ofBuf ((TRef.of (sig := sig) (T := ⟨S100000, .f32⟩) main_call0_v1).toBuf (broadcastInDim S100000 ![] bcast_S_S100000 ((TRef.of (sig := sig) (T := ⟨S_, .f32⟩) main_call0_v0).ofBuf ((TRef.of (sig := sig) (T := ⟨S_, .f32⟩) main_call0_v0).toBuf (id ((TRef.of (sig := sig) (T := ⟨S_, .f32⟩) main_cst_2).ofBuf x))))))))
      = select a b (broadcastInDim S100000 ![] bcast_S_S100000 (id x)) := rfl

set_option maxHeartbeats 4000000 in
theorem safeDegree_at2 (c : Dev nD) : W2 m ρ c (Proc.devRef .tc main_v13) = safeDegree (F := Ideal) (m ((c : Thread nD τ).loc main_arg1)) := by
  have h0 := hasMessages_at1 m ρ c
  have h1 := degree_at1 m ρ c
  have h2 := one_at1 m ρ c
  show StableHlo.after hostOps0_1 (W1 m ρ c) (Proc.devRef .tc main_v13) = _
  generalize W1 m ρ c = V at h0 h1 h2 ⊢
  after_results
  refine (where_read _ _ _).trans ?_
  rw [h0, h1, h2]
  rfl

theorem srcs_at2 (c : Dev nD) : W2 m ρ c (Proc.devRef .tc main_v5) = srcs (F := Ideal) (m ((c : Thread nD τ).loc main_arg1)) :=
  (main_v5_at2_from1 m ρ c).trans (srcs_at1 m ρ c)
theorem dsts_at2 (c : Dev nD) : W2 m ρ c (Proc.devRef .tc main_v6) = dsts (F := Ideal) (m ((c : Thread nD τ).loc main_arg1)) :=
  (main_v6_at2_from1 m ρ c).trans (dsts_at1 m ρ c)
theorem srcs_at3 (c : Dev nD) : W3 m ρ c (Proc.devRef .tc main_v5) = srcs (F := Ideal) (m ((c : Thread nD τ).loc main_arg1)) :=
  (main_v5_at3_from1 m ρ c).trans (srcs_at1 m ρ c)
theorem dsts_at3 (c : Dev nD) : W3 m ρ c (Proc.devRef .tc main_v6) = dsts (F := Ideal) (m ((c : Thread nD τ).loc main_arg1)) :=
  (main_v6_at3_from1 m ρ c).trans (dsts_at1 m ρ c)

set_option maxHeartbeats 4000000 in
theorem weight_at3 (c : Dev nD) : W3 m ρ c (Proc.devRef .tc main_v29) = weight (F := Ideal) (m ((c : Thread nD τ).loc main_arg1)) := by
  have h0 := safeDegree_at2 m ρ c
  have h1 := srcs_at2 m ρ c
  have h2 := dsts_at2 m ρ c
  show StableHlo.after hostOps0_2 (W2 m ρ c) (Proc.devRef .tc main_v29) = _
  generalize W2 m ρ c = V at h0 h1 h2 ⊢
  after_results
  rw [h0, h1, h2]
  rfl

theorem srcs_at4 (c : Dev nD) : W4 m ρ c (Proc.devRef .tc main_v5) = srcs (F := Ideal) (m ((c : Thread nD τ).loc main_arg1)) :=
  (main_v5_at4_from3 m ρ c).trans (srcs_at3 m ρ c)
theorem dsts_at4 (c : Dev nD) : W4 m ρ c (Proc.devRef .tc main_v6) = dsts (F := Ideal) (m ((c : Thread nD τ).loc main_arg1)) :=
  (main_v6_at4_from3 m ρ c).trans (dsts_at3 m ρ c)
theorem weight_at4 (c : Dev nD) : W4 m ρ c (Proc.devRef .tc main_v29) = weight (F := Ideal) (m ((c : Thread nD τ).loc main_arg1)) :=
  (main_v29_at4_from3 m ρ c).trans (weight_at3 m ρ c)

theorem srcs_at6 (c : Dev nD) : W6 m ρ c (Proc.devRef .tc main_v5) = srcs (F := Ideal) (m ((c : Thread nD τ).loc main_arg1)) :=
  (main_v5_at6_from3 m ρ c).trans (srcs_at3 m ρ c)
theorem dsts_at6 (c : Dev nD) : W6 m ρ c (Proc.devRef .tc main_v6) = dsts (F := Ideal) (m ((c : Thread nD τ).loc main_arg1)) :=
  (main_v6_at6_from3 m ρ c).trans (dsts_at3 m ρ c)
theorem weight_at6 (c : Dev nD) : W6 m ρ c (Proc.devRef .tc main_v29) = weight (F := Ideal) (m ((c : Thread nD τ).loc main_arg1)) :=
  (main_v29_at6_from3 m ρ c).trans (weight_at3 m ρ c)

theorem srcs_at8 (c : Dev nD) : W8 m ρ c (Proc.devRef .tc main_v5) = srcs (F := Ideal) (m ((c : Thread nD τ).loc main_arg1)) :=
  (main_v5_at8_from3 m ρ c).trans (srcs_at3 m ρ c)
theorem dsts_at8 (c : Dev nD) : W8 m ρ c (Proc.devRef .tc main_v6) = dsts (F := Ideal) (m ((c : Thread nD τ).loc main_arg1)) :=
  (main_v6_at8_from3 m ρ c).trans (dsts_at3 m ρ c)
theorem weight_at8 (c : Dev nD) : W8 m ρ c (Proc.devRef .tc main_v29) = weight (F := Ideal) (m ((c : Thread nD τ).loc main_arg1)) :=
  (main_v29_at8_from3 m ρ c).trans (weight_at3 m ρ c)

/-! ## The five regions and the stretches between them -/

/-- The first region's output array. -/
theorem feat1_at4 (c : Dev nD) : W4 m ρ c (Proc.devRef .tc main_v30) = feat1 m c :=
  (W4_arr m ρ c 2).trans ((Layer0.final (V3 m ρ) c).trans
    (congrArg₂ dense (main_arg0_at3 m ρ c) (main_arg3_at3 m ρ c)))

set_option maxHeartbeats 4000000 in
/-- The message pass after it. -/
theorem sum1_at5 (c : Dev nD) : W5 m ρ c (Proc.devRef .tc main_v43) = propagate (F := Ideal) (m ((c : Thread nD τ).loc main_arg1)) (feat1 m c) := by
  have h0 := srcs_at4 m ρ c
  have h1 := dsts_at4 m ρ c
  have h2 := weight_at4 m ρ c
  have h3 := feat1_at4 m ρ c
  show StableHlo.after hostOps1 (W4 m ρ c) (Proc.devRef .tc main_v43) = _
  generalize W4 m ρ c = V at h0 h1 h2 h3 ⊢
  after_results
  rw [h0, h1, h2, h3]
  rfl
set_option maxHeartbeats 4000000 in
/-- The next layer's bias as one row. -/
theorem bias_at5 (c : Dev nD) : W5 m ρ c (Proc.devRef .tc main_v44) = oneRow (m ((c : Thread nD τ).loc main_arg4)) := by
  have h0 := main_arg4_at4 m ρ c
  show StableHlo.after hostOps1 (W4 m ρ c) (Proc.devRef .tc main_v44) = _
  generalize W4 m ρ c = V at h0 ⊢
  after_results
  rw [h0]
  rfl

/-- The second region's output array. -/
theorem feat2_at6 (c : Dev nD) : W6 m ρ c (Proc.devRef .tc main_v45) = feat2 m c :=
  (W6_arr m ρ c 3).trans ((Layer1.final (V5 m ρ) c).trans
    (congr (congrArg₂ reluDense (sum1_at5 m ρ c) (bias_at5 m ρ c)) (main_arg5_at5 m ρ c)))

set_option maxHeartbeats 4000000 in
/-- The message pass after it. -/
theorem sum2_at7 (c : Dev nD) : W7 m ρ c (Proc.devRef .tc main_v58) = propagate (F := Ideal) (m ((c : Thread nD τ).loc main_arg1)) (feat2 m c) := by
  have h0 := srcs_at6 m ρ c
  have h1 := dsts_at6 m ρ c
  have h2 := weight_at6 m ρ c
  have h3 := feat2_at6 m ρ c
  show StableHlo.after hostOps2 (W6 m ρ c) (Proc.devRef .tc main_v58) = _
  generalize W6 m ρ c = V at h0 h1 h2 h3 ⊢
  after_results
  rw [h0, h1, h2, h3]
  rfl
set_option maxHeartbeats 4000000 in
/-- The next layer's bias as one row. -/
theorem bias_at7 (c : Dev nD) : W7 m ρ c (Proc.devRef .tc main_v59) = oneRow (m ((c : Thread nD τ).loc main_arg6)) := by
  have h0 := main_arg6_at6 m ρ c
  show StableHlo.after hostOps2 (W6 m ρ c) (Proc.devRef .tc main_v59) = _
  generalize W6 m ρ c = V at h0 ⊢
  after_results
  rw [h0]
  rfl

/-- The third region's output array. -/
theorem feat3_at8 (c : Dev nD) : W8 m ρ c (Proc.devRef .tc main_v60) = feat3 m c :=
  (W8_arr m ρ c 3).trans ((Layer2.final (V7 m ρ) c).trans
    (congr (congrArg₂ reluDense (sum2_at7 m ρ c) (bias_at7 m ρ c)) (main_arg7_at7 m ρ c)))

set_option maxHeartbeats 4000000 in
/-- The message pass after it. -/
theorem sum3_at9 (c : Dev nD) : W9 m ρ c (Proc.devRef .tc main_v73) = propagate (F := Ideal) (m ((c : Thread nD τ).loc main_arg1)) (feat3 m c) := by
  have h0 := srcs_at8 m ρ c
  have h1 := dsts_at8 m ρ c
  have h2 := weight_at8 m ρ c
  have h3 := feat3_at8 m ρ c
  show StableHlo.after hostOps3 (W8 m ρ c) (Proc.devRef .tc main_v73) = _
  generalize W8 m ρ c = V at h0 h1 h2 h3 ⊢
  after_results
  rw [h0, h1, h2, h3]
  rfl
set_option maxHeartbeats 4000000 in
/-- The next layer's bias as one row. -/
theorem bias_at9 (c : Dev nD) : W9 m ρ c (Proc.devRef .tc main_v74) = oneRow (m ((c : Thread nD τ).loc main_arg8)) := by
  have h0 := main_arg8_at8 m ρ c
  show StableHlo.after hostOps3 (W8 m ρ c) (Proc.devRef .tc main_v74) = _
  generalize W8 m ρ c = V at h0 ⊢
  after_results
  rw [h0]
  rfl

/-- The fourth region's output array. -/
theorem feat4_at10 (c : Dev nD) : W10 m ρ c (Proc.devRef .tc main_v75) = feat4 m c :=
  (W10_arr m ρ c 2).trans ((Layer3.final (V9 m ρ) c).trans
    (congrArg₂ biased (sum3_at9 m ρ c) (bias_at9 m ρ c)))

set_option maxHeartbeats 4000000 in
/-- The pooling after it. -/
theorem emb_at11 (c : Dev nD) : W11 m ρ c (Proc.devRef .tc main_v87) = emb m c := by
  have h0 := feat4_at10 m ρ c
  have h1 := main_arg2_at10 m ρ c
  show StableHlo.after hostOps4 (W10 m ρ c) (Proc.devRef .tc main_v87) = _
  generalize W10 m ρ c = V at h0 h1 ⊢
  after_results
  rw [h0, h1]
  rfl
set_option maxHeartbeats 4000000 in
/-- The classifier's bias as one row. -/
theorem bias_at11 (c : Dev nD) : W11 m ρ c (Proc.devRef .tc main_v88) = oneRow10 (m ((c : Thread nD τ).loc main_arg10)) := by
  have h0 := main_arg10_at10 m ρ c
  show StableHlo.after hostOps4 (W10 m ρ c) (Proc.devRef .tc main_v88) = _
  generalize W10 m ρ c = V at h0 ⊢
  after_results
  rw [h0]
  rfl

/-- The last region's output array: the logits. -/
theorem logit_at12 (c : Dev nD) : W12 m ρ c (Proc.devRef .tc main_v89) = logit m c :=
  (W12_arr m ρ c 3).trans ((Head.final (V11 m ρ) c).trans
    (congr (congrArg₂ linear (emb_at11 m ρ c) (main_arg9_at11 m ρ c)) (bias_at11 m ρ c)))

/-- The last region only reads the embeddings: its first window stages them and never writes them back. -/
theorem emb_at12 (c : Dev nD) : W12 m ρ c (Proc.devRef .tc main_v87) = emb m c :=
  (W12_arr m ρ c 0).trans (((dat4 (V11 m ρ) c).arrAt_in 0 rfl _).trans ((A_eq4 (V11 m ρ) c 0).trans (emb_at11 m ρ c)))

end Cert.KernelIdeal.Stages

end
-- ==== Proof.RefValue.lean ====
/-
  The reference's two results as the network's pieces: the embeddings are `embedding` of the nine arguments it reads,
  the logits `classify` of the embeddings and the last two. The run's composed term is these definitions unfolded.
-/
import proofs.«140348_j49881750176158_1_alg».proof.Proof.RefRun
import proofs.«140348_j49881750176158_1_alg».proof.Proof.GraphOps

noncomputable section

namespace Cert.ReferenceIdeal.RefValue

open Cert.ReferenceIdeal Cert.ReferenceIdeal.Gen Cert.ReferenceIdeal.Graph Idealize.ShloMosaic Idealize.ShloMosaic.TcCoe Idealize.SL.Sem

variable {F : FTy → Type} [FloatOps F]

set_option maxRecDepth 8192 in
/-- The second result: the graph embeddings. -/
theorem embedding_eq (m : (ℓ : Loc nD τ sig) → Buf (Elt F) ℓ) (c : Dev nD) :
    Cert.ReferenceIdeal.ValueP.res_main_v149 m c = embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v149
  rfl

set_option maxRecDepth 8192 in
/-- The first result: the classifier on the embeddings. -/
theorem logits_eq (m : (ℓ : Loc nD τ sig) → Buf (Elt F) ℓ) (c : Dev nD) :
    Cert.ReferenceIdeal.ValueP.res_main_v153 m c = classify (embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) := by
  unfold Cert.ReferenceIdeal.ValueP.res_main_v153
  rfl

end Cert.ReferenceIdeal.RefValue

end
-- ==== Proof.RefLayers.lean ====
/-
  The reference's dense steps, entry by entry. On the extended reals the host's dot_general is the plain sum over the
  contracted axis, so the product of the node rows with a weight matrix is `dense`; with the bias repeated down the
  rows and the maximum with zero in front it is `reluDense`, and the bias alone is `biased`; the classifier is the
  one-block `linear`. A bias vector repeated down the rows reads, at any entry, the vector at the entry's column — the
  same number the one-row reshape of the vector holds there. With these the reference's embeddings and logits are the
  message passes and the pooling around `dense`, `reluDense`, `biased` and `linear`. No finiteness is used: sums and
  products are only re-indexed, never distributed or cancelled.
-/
import proofs.«140348_j49881750176158_1_alg».proof.Proof.GraphOps
import proofs.«140348_j49881750176158_1_alg».proof.Proof.NodeOps
import proofs.«140348_j49881750176158_1_alg».proof.Proof.Head
import proofs.«140348_j49881750176158_1_alg».proof.Proof.BiasRow
import Idealize.ShloMosaic.Lib.Pipeline.Value
import Idealize.ShloMosaic.Lib.ValueIdx
import Idealize.ShloMosaic.PureOps.Ideal.Laws

noncomputable section

namespace Cert.ReferenceIdeal.RefLayers

open Cert.ReferenceIdeal Cert.ReferenceIdeal.Gen Cert.ReferenceIdeal.Graph Idealize.ShloMosaic Idealize.ShloMosaic.ValueIdx
open Cert.KernelIdeal.NodeOps Cert.KernelIdeal.BiasRow
open scoped BigOperators

namespace Rows

theorem lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

end Rows

/-- The host's product of the node rows with a weight matrix is the sum over the contracted coordinate. -/
theorem mm_eq (a : FVec Ideal S100000x128 .f32) (w : FVec Ideal S128x128 .f32) : mm (F := Ideal) a w = dense a w := by
  funext i
  unfold mm dense
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = rowAt i k := funext fun a => Fin.ext (by
    match a with
    | ⟨0, _⟩ => exact Rows.lhs0 _ _
    | ⟨1, _⟩ => exact (Rows.lhs1 _ _).trans hk)
  have er : dot_S100000x128_S128x128_S100000x128_1_0_0_1_n_n.rhsIdx i ((contrEquiv1 dot_S100000x128_S128x128_S100000x128_1_0_0_1_n_n 128 rfl rfl).symm k) = colAt i k := funext fun a => Fin.ext (by
    match a with
    | ⟨0, _⟩ => exact (Rows.rhs0 _ _).trans hk
    | ⟨1, _⟩ => exact Rows.rhs1 _ _)
  rw [el, er]

/-- A bias vector repeated down the rows reads, at any entry, the vector at the entry's column. -/
theorem rowsOf_apply (b : FVec Ideal S128 .f32) (j : S100000x128.Idx) :
    rowsOf (F := Ideal) b j = b (ix1 ⟨(j 1).val, (j 1).isLt⟩) := by
  unfold rowsOf
  exact (broadcastInDim_apply ![0, 1] bcast_S1x128_S100000x128_0_1 _ j (biasAt ⟨(j 1).val, (j 1).isLt⟩) (fun a => by
      match a with
      | ⟨0, _⟩ => rfl
      | ⟨1, _⟩ => rfl)).trans
    (broadcastInDim_apply ![1] bcast_S128_S1x128_1 b (biasAt ⟨(j 1).val, (j 1).isLt⟩) (ix1 ⟨(j 1).val, (j 1).isLt⟩) (fun a => by
      match a with
      | ⟨0, _⟩ => rfl))

/-- Bias, rectifier and product, as the reference writes them, are `reluDense` over the one-row bias. -/
theorem reluDense_eq (s : FVec Ideal S100000x128 .f32) (b : FVec Ideal S128 .f32) (w : FVec Ideal S128x128 .f32) :
    mm (F := Ideal) (relu (F := Ideal) (addf s (rowsOf (F := Ideal) b))) w = reluDense s (oneRow b) w := by
  rw [mm_eq]
  funext i
  unfold dense reluDense
  refine Finset.sum_congr rfl fun k _ => ?_
  have h1 : rowsOf (F := Ideal) b (rowAt i k) = b (ix1 k) := rowsOf_apply b (rowAt i k)
  have h2 := oneRow_apply b k
  unfold relu
  simp only [maximumf_apply, addf_apply]
  rw [h1, h2]
  rfl

/-- The bias added to every row, as the reference writes it, is `biased` over the one-row bias. -/
theorem biased_eq (s : FVec Ideal S100000x128 .f32) (b : FVec Ideal S128 .f32) :
    addf s (rowsOf (F := Ideal) b) = biased s (oneRow b) := by
  funext i
  unfold biased
  have h1 := rowsOf_apply b i
  have h2 := oneRow_apply b ⟨(i 1).val, (i 1).isLt⟩
  simp only [addf_apply]
  rw [h1, h2]

/-- The reference's embeddings: three message passes around `dense`, `reluDense`, `reluDense` and `biased`, then the pooling. -/
theorem embedding_eq (x : FVec Ideal S100000x128 .f32) (e : IVec S2x1600000 32) (batch : IVec S100000 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) :
    embedding (F := Ideal) x e batch w1 b1 w2 b2 w3 b3
      = meanPool (F := Ideal) batch (biased (propagate (F := Ideal) e (reluDense (propagate (F := Ideal) e (reluDense (propagate (F := Ideal) e (dense x w1)) (oneRow b1) w2)) (oneRow b2) w3)) (oneRow b3)) := by
  unfold embedding
  rw [mm_eq x w1, reluDense_eq (propagate (F := Ideal) e (dense x w1)) b1 w2,
    reluDense_eq (propagate (F := Ideal) e (reluDense (propagate (F := Ideal) e (dense x w1)) (oneRow b1) w2)) b2 w3,
    biased_eq]

namespace Cls

theorem lhs0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem lhs1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem rhs0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem rhs1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

end Cls

open Cert.KernelIdeal.Head in
/-- The classifier as the reference writes it is the one-block `linear` over the one-row reshape of its bias. -/
theorem classify_eq (emb : FVec Ideal S64x128 .f32) (wl : FVec Ideal S128x10 .f32) (bl : FVec Ideal S10 .f32) :
    classify (F := Ideal) emb wl bl = linear emb wl (oneRow10 bl) := by
  funext j
  unfold classify linear
  have hb : broadcastInDim S64x10 ![0, 1] bcast_S1x10_S64x10_0_1 (broadcastInDim S1x10 ![1] bcast_S10_S1x10_1 bl) j
      = oneRow10 bl (biasOf j) := by
    exact ((broadcastInDim_apply ![0, 1] bcast_S1x10_S64x10_0_1 _ j (biasOf j) (fun a => by
      match a with
      | ⟨0, _⟩ => rfl
      | ⟨1, _⟩ => rfl)).trans
      (broadcastInDim_apply ![1] bcast_S10_S1x10_1 bl (biasOf j) (ix1 ⟨(j 1).val, (j 1).isLt⟩) (fun a => by
        match a with
        | ⟨0, _⟩ => rfl))).trans (oneRow10_apply bl j).symm
  simp only [addf_apply, Host.dotGeneral]
  rw [hb, Ideal.dotGeneral_apply, ← Equiv.sum_comp (contrEquiv1 dot_S64x128_S128x10_S64x10_1_0_0_1_n_n 128 rfl rfl).symm]
  refine congrArg₂ (fun a b : EReal => a + b) (Finset.sum_congr rfl fun k _ => ?_) rfl
  have hk := contrEquiv1_symm_val dot_S64x128_S128x10_S64x10_1_0_0_1_n_n 128 rfl rfl k
  have el : dot_S64x128_S128x10_S64x10_1_0_0_1_n_n.lhsIdx j ((contrEquiv1 dot_S64x128_S128x10_S64x10_1_0_0_1_n_n 128 rfl rfl).symm k) = embAt j k := funext fun a => Fin.ext (by
    match a with
    | ⟨0, _⟩ => exact Cls.lhs0 _ _
    | ⟨1, _⟩ => exact (Cls.lhs1 _ _).trans hk)
  have er : dot_S64x128_S128x10_S64x10_1_0_0_1_n_n.rhsIdx j ((contrEquiv1 dot_S64x128_S128x10_S64x10_1_0_0_1_n_n 128 rfl rfl).symm k) = matAt j k := funext fun a => Fin.ext (by
    match a with
    | ⟨0, _⟩ => exact (Cls.rhs0 _ _).trans hk
    | ⟨1, _⟩ => exact Cls.rhs1 _ _)
  rw [el, er]

end Cert.ReferenceIdeal.RefLayers

end
-- ==== Proof.lean ====
/-
  A three-layer graph convolution network with mean pooling and a linear classifier, as a Pallas program of five kernel
  regions among host operations, against its jnp reference, on the extended reals.

  Both programs compute the same edge data with the same host operations: a message along every edge and along a
  self-loop at every node, a node's degree, deg^(-1/2), a message's weight. The kernel computes them once, the
  reference once per layer; they are one function of the edge array. A message pass (gather the source rows, scale,
  scatter-add into the targets) and the pooling are host operations in both programs, the same ones.

  The programs differ only in the dense steps. The kernel does x · W1 in 20 row blocks of 5000, each block times the
  whole matrix into a zero accumulator; the reference does one dot_general. Entry (r, q) of either is Σ_k x[r, k] · W1[k, q].
  For the next two layers the kernel fuses bias, rectifier and product in one region, again by row blocks; the reference
  adds the bias repeated down the rows, takes the maximum with zero and multiplies: entry (r, q) of either is
  Σ_k max(s[r, k] + b[k], 0) · W[k, q]. The last bias is added by a region, row block by row block, or by the host.
  The classifier is one block in the kernel, a dot_general plus a repeated bias row in the reference:
  Σ_k e[g, k] · Wlin[k, q] + blin[q]. Changes of float format are the identity on the extended reals.

  Sums and products are only re-indexed — a block's row r' of block t is row 5000·t + r' of the array, the contracted
  index is its one coordinate — never distributed or cancelled, so the inputs' finiteness is not used.

  The reference's run is its composed term of the arguments; the kernel's is read off its twelve segments: a stretch of
  host operations changes its result buffers, a region its output array, everything else is read back unchanged.
-/
import proofs.«140348_j49881750176158_1_alg».proof.Defs
import proofs.«140348_j49881750176158_1_alg».proof.Proof.Gen.Kernel
import proofs.«140348_j49881750176158_1_alg».proof.Proof.Gen.Kernel.Frame
import proofs.«140348_j49881750176158_1_alg».proof.Proof.Gen.KernelIdeal
import proofs.«140348_j49881750176158_1_alg».proof.Proof.Gen.KernelIdeal.Frame
import proofs.«140348_j49881750176158_1_alg».proof.Proof.Gen.ReferenceIdeal
import proofs.«140348_j49881750176158_1_alg».proof.Proof.Gen.Pre_finite_inputs
import proofs.«140348_j49881750176158_1_alg».proof.Proof.KernelRun
import proofs.«140348_j49881750176158_1_alg».proof.Proof.Stages
import proofs.«140348_j49881750176158_1_alg».proof.Proof.RefRun
import proofs.«140348_j49881750176158_1_alg».proof.Proof.RefValue
import proofs.«140348_j49881750176158_1_alg».proof.Proof.RefLayers

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- Both programs end with the logits and the embeddings at one function of the arguments: the kernel's segments give
    it piece by piece, and the reference's composed term is the same pieces once its dense steps are read entry by entry. -/
theorem algebraic : Cert.algebraic_KernelIdeal_ReferenceIdeal := by
  intro m ρ m' ρ' _ hagree
  refine ⟨fun c => Cert.KernelIdeal.Stages.logit m c, fun c => Cert.KernelIdeal.Stages.emb m c, ?_, ?_⟩
  · exact (θ_run Cert.KernelIdeal.defs _ _).mono (fun r h c =>
      ⟨(h c).1.trans (Cert.KernelIdeal.Stages.logit_at12 m ρ c), (h c).2.1.trans (Cert.KernelIdeal.Stages.emb_at12 m ρ c), (h c).2.2⟩)
      (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨a0, a1, a2, a3, a4, a5, a6, a7, a8, a9, a10⟩ := hagree c
      rw [Cert.ReferenceIdeal.RefValue.logits_eq, Cert.ReferenceIdeal.RefLayers.classify_eq, Cert.ReferenceIdeal.RefLayers.embedding_eq,
        a0, a1, a2, a3, a4, a5, a6, a7, a8, a9, a10]
      rfl
    · obtain ⟨a0, a1, a2, a3, a4, a5, a6, a7, a8, a9, a10⟩ := hagree c
      rw [Cert.ReferenceIdeal.RefValue.embedding_eq, Cert.ReferenceIdeal.RefLayers.embedding_eq,
        a0, a1, a2, a3, a4, a5, a6, a7, a8]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
